-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x20 : Shape := ⟨2, ![200000, 20]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x20 : S_.BroadcastsInDim S200000x20 (![] : Fin 0 → Fin S200000x20.rank)
  reducesTo_S200000x20_S_d0_1 : S200000x20.ReducesTo [0, 1] S_

variable [Facts]

def fn {F : FTy → Type} [FloatOps F] (main_arg0 : FVec F S200000x256 .f32) (main_arg1 : FVec F S200000x20 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x20 .f32 := Host.absf main_arg1
  let main_cst_0 : FVec F S_ .f32 := constant S_ .f32 0x7F800000#32
  let main_v5 : FVec F S200000x20 .f32 := broadcastInDim S200000x20 ![] bcast_S_S200000x20 main_cst_0
  let main_v6 : IVec S200000x20 1 := cmpf .olt main_v4 main_v5
  let main_c_1 : IVec S_ 1 := constantI S_ 1 1#1
  let main_v7 : IVec S_ 1 := (fun x v => Host.reduce IntOp.andi x v reducesTo_S200000x20_S_d0_1 h_S_) main_v6 main_c_1
  let main_v8 : IVec S_ 1 := andi main_v3 main_v7
  main_v8
-- ==== Kernel.lean ====
abbrev S200000x256 : Shape := ⟨2, ![200000, 256]⟩
abbrev S200000x20 : Shape := ⟨2, ![200000, 20]⟩
abbrev S2x1x128 : Shape := ⟨3, ![2, 1, 128]⟩
abbrev S2x256x20 : Shape := ⟨3, ![2, 256, 20]⟩
abbrev S10000x256 : Shape := ⟨2, ![10000, 256]⟩
abbrev S10000x20 : Shape := ⟨2, ![10000, 20]⟩
abbrev S1x1x128 : Shape := ⟨3, ![1, 1, 128]⟩
abbrev S1x256x20 : Shape := ⟨3, ![1, 256, 20]⟩
abbrev S1x256 : Shape := ⟨2, ![1, 256]⟩
abbrev S256x20 : Shape := ⟨2, ![256, 20]⟩
abbrev S256 : Shape := ⟨1, ![256]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S200000x20, .f32⟩
  | .hbm, ⟨2, _⟩ => ⟨S2x1x128, .f32⟩
  | .hbm, ⟨3, _⟩ => ⟨S2x256x20, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x20, .f32⟩
  | .hbm, ⟨10, _⟩ => ⟨S256x20, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S10000x256, .f32⟩
  | .local _ .vmem, ⟨1, _⟩ => ⟨S10000x256, .f32⟩
  | .local _ .vmem, ⟨2, _⟩ => ⟨S10000x20, .f32⟩
  | .local _ .vmem, ⟨3, _⟩ => ⟨S10000x20, .f32⟩
  | .local _ .vmem, ⟨4, _⟩ => ⟨S1x1x128, .f32⟩
  | .local _ .vmem, ⟨5, _⟩ => ⟨S1x1x128, .f32⟩
  | .local _ .vmem, ⟨6, _⟩ => ⟨S1x256x20, .f32⟩
  | .local _ .vmem, ⟨7, _⟩ => ⟨S1x256x20, .f32⟩
  | .local _ .vmem, ⟨8, _⟩ => ⟨S1x256, .f32⟩
  | .local _ .vmem, ⟨9, _⟩ => ⟨S256x20, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S10000x256_S10000x256_0_0 : ∀ a, (![0, 0] : Fin 2 → Nat) a + S10000x256.size a ≤ S10000x256.size a
  h_S10000x256 : 0 < S10000x256.numel
  inb_S10000x20_S10000x20_0_0 : ∀ a, (![0, 0] : Fin 2 → Nat) a + S10000x20.size a ≤ S10000x20.size a
  h_S10000x20 : 0 < S10000x20.numel
  reduces_S10000x256_S256 : S10000x256.Reduces [0] S256
  shapeCasts_S256_S1x256 : S256.ShapeCasts S1x256
  reduces_S1x256_S1 : S1x256.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  shapeCasts_S256x20_S1x256x20 : S256x20.ShapeCasts S1x256x20
  inb_S1x256x20_S1x256x20_0_0_0 : ∀ a, (![0, 0, 0] : Fin 3 → Nat) a + S1x256x20.size a ≤ S1x256x20.size a
  h_S1x256x20 : 0 < S1x256x20.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  reducesTo_S2x256x20_S256x20_d0 : S2x256x20.ReducesTo [0] S256x20
  reducesTo_S256x20_S_d0_1 : S256x20.ReducesTo [0, 1] S_
  dot_S10000x256_S10000x20_S256x20_0_0_1_1_n_n_wf : DotDims.WF S10000x256 S10000x20 S256x20 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S200000x20.size a
  hwx0_1 : ∀ i : grid0.Coords, EltTy.bits .f32 = 32 ∨ (Rect.block (s := S200000x20) S10000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x20.size a ≤ S2x256x20.size a
  hwx0_3 : ∀ i : grid0.Coords, EltTy.bits .f32 = 32 ∨ (Rect.block (s := S2x256x20) S1x256x20.size (cc0_transform_3 i) (hinb0_3 i)).WholeWords (EltTy.packing .f32)

variable [Facts₀]

def dot_S10000x256_S10000x20_S256x20_0_0_1_1_n_n : DotDims S10000x256 S10000x20 S256x20 where
  lhsContracting := [0]
  rhsContracting := [0]
  lhsNonContracting := [1]
  rhsNonContracting := [1]
  lhsBatch := []
  rhsBatch := []
  wf := dot_S10000x256_S10000x20_S256x20_0_0_1_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S200000x256 : Shape := ⟨2, ![200000, 256]⟩
abbrev S200000x20 : Shape := ⟨2, ![200000, 20]⟩
abbrev S_ : Shape := ⟨0, ![]⟩
abbrev S256x20 : Shape := ⟨2, ![256, 20]⟩

abbrev nBuf : Space → Nat
  | .hbm => 10
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x20, .f32⟩
  | .hbm, ⟨2, _⟩ => ⟨S200000x256, .f32⟩
  | .hbm, ⟨3, _⟩ => ⟨S_, .f32⟩
  | .hbm, ⟨4, _⟩ => ⟨S_, .f32⟩
  | .hbm, ⟨5, _⟩ => ⟨S256x20, .f32⟩
  | .hbm, ⟨6, _⟩ => ⟨S256x20, .f32⟩
  | .hbm, ⟨7, _⟩ => ⟨S_, .f32⟩
  | .hbm, ⟨8, _⟩ => ⟨S_, .f32⟩
  | .hbm, ⟨9, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S200000x256_S_d0_1 : S200000x256.ReducesTo [0, 1] S_
  h_S_ : 0 < S_.numel
  reducesTo_S256x20_S_d0_1 : S256x20.ReducesTo [0, 1] S_
  dot_S200000x256_S200000x20_S256x20_0_0_1_1_n_n_wf : DotDims.WF S200000x256 S200000x20 S256x20 [0] [0] [1] [1] [] []

variable [Facts₀]

def dot_S200000x256_S200000x20_S256x20_0_0_1_1_n_n : DotDims S200000x256 S200000x20 S256x20 where
  lhsContracting := [0]
  rhsContracting := [0]
  lhsNonContracting := [1]
  rhsNonContracting := [1]
  lhsBatch := []
  rhsBatch := []
  wf := dot_S200000x256_S200000x20_S256x20_0_0_1_1_n_n_wf

class Facts : Prop extends Facts₀ where

variable [Facts]
-- ==== Proof.Pieces.lean ====
/-
  What each control case of the kernel body leaves behind, as a pure term of what it loaded.

  The body has three cases along the inner grid axis: the first step of a core's run (it zeroes both accumulators,
  then accumulates), a middle step (it accumulates), and the last step (it accumulates, then writes the two outputs
  from the accumulators). In every case the row-square accumulator ends at `k0_pay3` of the row tile and of what the
  accumulator held, and the Gram accumulator at `k0_pay4` of the two tiles and of what it held; at the first step what
  they held is the zero block just stored. At the last step output 2 is `k0_pay5` of the new row-square accumulator
  and output 3 is `k0_pay6` of the new Gram accumulator. Each statement holds at any float instance.
-/
import proofs.«163499_j51539607552337_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle step -/

/-- A middle step leaves the row-square accumulator at its old contents plus the tile's column sums of squares. -/
theorem rowsq_mid (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : ¬cond0_1 i) (x0 : Vec F S10000x256 .f32) (x1 : Vec F S10000x20 .f32) (xs0 : Vec F S1x256 .f32) (xs1 : Vec F S256x20 .f32) :
    sout0_B_0 c i a2 h2 a3 h3 a4 h4 a5 h5 a6 h6 a7 h7 hc0 hc1 x0 x1 xs0 xs1 = k0_pay3 x0 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  rw [View.canon_unit_zero hz2]
  simp only [View.readAt_eq_ld, h2.read_unread, h6.read_unread, View.ld_unit_zero (S := S10000x256) hz2, View.ld_unit_zero (S := S10000x20) hz2, View.ld_unit_zero (S := S1x256) hz2, View.ld_unit_zero (S := S256x20) hz2]

/-- A middle step leaves the Gram accumulator at its old contents plus the tile's Gram block. -/
theorem gram_mid (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : ¬cond0_1 i) (x0 : Vec F S10000x256 .f32) (x1 : Vec F S10000x20 .f32) (xs0 : Vec F S1x256 .f32) (xs1 : Vec F S256x20 .f32) :
    sout0_B_1 c i a2 h2 a3 h3 a4 h4 a5 h5 a6 h6 a7 h7 hc0 hc1 x0 x1 xs0 xs1 = k0_pay4 x0 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  rw [View.canon_unit_zero hz2]
  simp only [View.readAt_eq_ld, h2.read_unread, h3.read_unread, h7.read_unread, View.ld_unit_zero (S := S10000x256) hz2, View.ld_unit_zero (S := S10000x20) hz2, View.ld_unit_zero (S := S1x256) hz2, View.ld_unit_zero (S := S256x20) hz2]

/-! ## The last step of a core's run -/

theorem rowsq_last (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : cond0_1 i) (x0 : Vec F S10000x256 .f32) (x1 : Vec F S10000x20 .f32) (xs0 : Vec F S1x256 .f32) (xs1 : Vec F S256x20 .f32) :
    sout0_C_0 c i a2 h2 a3 h3 a4 h4 a5 h5 a6 h6 a7 h7 hc0 hc1 x0 x1 xs0 xs1 = k0_pay3 x0 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h6.read_unread, View.ld_unit_zero (S := S10000x256) hz2, View.ld_unit_zero (S := S10000x20) hz2, View.ld_unit_zero (S := S1x256) hz2, View.ld_unit_zero (S := S256x20) hz2]

theorem gram_last (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : cond0_1 i) (x0 : Vec F S10000x256 .f32) (x1 : Vec F S10000x20 .f32) (xs0 : Vec F S1x256 .f32) (xs1 : Vec F S256x20 .f32) :
    sout0_C_1 c i a2 h2 a3 h3 a4 h4 a5 h5 a6 h6 a7 h7 hc0 hc1 x0 x1 xs0 xs1 = k0_pay4 x0 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h7.read_unread, View.ld_unit_zero (S := S10000x256) hz2, View.ld_unit_zero (S := S10000x20) hz2, View.ld_unit_zero (S := S1x256) hz2, View.ld_unit_zero (S := S256x20) hz2]

/-- The last step writes output 2 from the row-square accumulator it has just updated. -/
theorem out2_last (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : cond0_1 i) (x0 : Vec F S10000x256 .f32) (x1 : Vec F S10000x20 .f32) (xs0 : Vec F S1x256 .f32) (xs1 : Vec F S256x20 .f32) :
    out0_C_2 c i a2 h2 a3 h3 a4 h4 a5 h5 a6 h6 a7 h7 hc0 hc1 x0 x1 xs0 xs1 = k0_pay5 (k0_pay3 x0 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x256) _ hz2]
  simp only [View.readAt_eq_ld, h2.read_unread, h6.read_unread, View.ld_unit_zero (S := S10000x256) hz2, View.ld_unit_zero (S := S10000x20) hz2, View.ld_unit_zero (S := S1x256) hz2, View.ld_unit_zero (S := S256x20) hz2]

/-- The last step writes output 3 from the Gram accumulator it has just updated. -/
theorem out3_last (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : ¬cond0_0 i) (hc1 : cond0_1 i) (x0 : Vec F S10000x256 .f32) (x1 : Vec F S10000x20 .f32) (xs0 : Vec F S1x256 .f32) (xs1 : Vec F S256x20 .f32) :
    out0_C_3 c i a2 h2 a3 h3 a4 h4 a5 h5 a6 h6 a7 h7 hc0 hc1 x0 x1 xs0 xs1 = k0_pay6 (k0_pay4 x0 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S256x20) _ hz2]
  simp only [View.readAt_eq_ld, h2.read_unread, h3.read_unread, h7.read_unread, View.ld_unit_zero (S := S10000x256) hz2, View.ld_unit_zero (S := S10000x20) hz2, View.ld_unit_zero (S := S1x256) hz2, View.ld_unit_zero (S := S256x20) hz2]

/-! ## The first step of a core's run -/

theorem rowsq_first (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : cond0_0 i) (hc1 : ¬cond0_1 i) (x0 : Vec F S10000x256 .f32) (x1 : Vec F S10000x20 .f32) :
    sout0_A_0 c i a2 h2 a3 h3 a4 h4 a5 h5 a6 h6 a7 h7 hc0 hc1 x0 x1 = k0_pay3 x0 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x256) hz2, View.readCov_unit_zero (S := S1x256) _ hz2]
  simp only [View.readAt_eq_ld, h2.read_unread, View.ld_unit_zero (S := S10000x256) hz2, View.ld_unit_zero (S := S10000x20) hz2, View.ld_unit_zero (S := S1x256) hz2, View.ld_unit_zero (S := S256x20) hz2]

theorem gram_first (c : Dev nD) (i : grid0.Coords) (a2 : Memref sig .tc .vmem S10000x256 .f32) (h2 : a2.IsWhole) (a3 : Memref sig .tc .vmem S10000x20 .f32) (h3 : a3.IsWhole) (a4 : Memref sig .tc .vmem S1x1x128 .f32) (h4 : a4.IsWhole) (a5 : Memref sig .tc .vmem S1x256x20 .f32) (h5 : a5.IsWhole) (a6 : Memref sig .tc .vmem S1x256 .f32) (h6 : a6.IsWhole) (a7 : Memref sig .tc .vmem S256x20 .f32) (h7 : a7.IsWhole) (hc0 : cond0_0 i) (hc1 : ¬cond0_1 i) (x0 : Vec F S10000x256 .f32) (x1 : Vec F S10000x20 .f32) :
    sout0_A_1 c i a2 h2 a3 h3 a4 h4 a5 h5 a6 h6 a7 h7 hc0 hc1 x0 x1 = k0_pay4 x0 x1 k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S256x20) hz2, View.readCov_unit_zero (S := S256x20) _ hz2]
  simp only [View.readAt_eq_ld, h2.read_unread, h3.read_unread, View.ld_unit_zero (S := S10000x256) hz2, View.ld_unit_zero (S := S10000x20) hz2, View.ld_unit_zero (S := S1x256) hz2, View.ld_unit_zero (S := S256x20) hz2]

end Cert.KernelIdeal.Found

end
-- ==== Proof.Steps.lean ====
/-
  The two accumulators, point by point along the grid.

  The grid has 20 points, point n = 10·(core) + (step). After point n the row-square accumulator and the Gram accumulator
  hold: at a first step (n ≡ 0 mod 10) the payloads over the zero blocks; at every other step the payloads over what the
  point before left. At a last step (n ≡ 9 mod 10) the two outputs' staging buffers hold the lane sum of the row-square
  accumulator and the Gram accumulator with a unit axis added. All of it at any float instance.
-/
import proofs.«163499_j51539607552337_2_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Found

variable {F : FTy → Type} [FloatOps F]
variable (m : (ℓ : Loc nD τ sig) → Buf (Elt F) ℓ)

/-- The row-square accumulator after point `n`. -/
def rowsqAt (c : Dev nD) (n : ℕ) (h : n < cfg0.N) : Vec F S1x256 .f32 := (outsAt0 m c n h).2.2.1
/-- The Gram accumulator after point `n`. -/
def gramAt (c : Dev nD) (n : ℕ) (h : n < cfg0.N) : Vec F S256x20 .f32 := (outsAt0 m c n h).2.2.2

/-- At the first step of a core's run both accumulators restart from the zero blocks. -/
theorem reset (c : Dev nD) (n : ℕ) (h : n < cfg0.N) (h0 : n % 10 = 0) :
    rowsqAt m c n h = k0_pay3 (iblk m c 0 ⟨n, h⟩) k0_pay1
    ∧ gramAt m c n h = k0_pay4 (iblk m c 0 ⟨n, h⟩) (iblk m c 1 ⟨n, h⟩) k0_pay2 := by
  have h1 : ¬n % 10 = 9 := by omega
  unfold rowsqAt gramAt
  rw [outsAt0_A m c ⟨n, h⟩ h0 h1]
  dsimp only
  rw [rowsq_first, gram_first]
  exact ⟨rfl, rfl⟩

/-- At every other step both accumulators continue from what the point before left. -/
theorem step (c : Dev nD) (n : ℕ) (h : n + 1 < cfg0.N) (h0 : ¬(n + 1) % 10 = 0) :
    rowsqAt m c (n + 1) h = k0_pay3 (iblk m c 0 ⟨n + 1, h⟩) (rowsqAt m c n (Nat.lt_of_succ_lt h))
    ∧ gramAt m c (n + 1) h = k0_pay4 (iblk m c 0 ⟨n + 1, h⟩) (iblk m c 1 ⟨n + 1, h⟩) (gramAt m c n (Nat.lt_of_succ_lt h)) := by
  unfold rowsqAt gramAt
  by_cases h1 : (n + 1) % 10 = 9
  · rw [outsAt0_C m c ⟨n + 1, h⟩ h0 h1]
    dsimp only
    rw [rowsq_last, gram_last]
    exact ⟨rfl, rfl⟩
  · rw [outsAt0_B m c ⟨n + 1, h⟩ h0 h1]
    dsimp only
    rw [rowsq_mid, gram_mid]
    exact ⟨rfl, rfl⟩

/-- At the last step of a core's run the outputs' staging buffers are written from the accumulators as that step leaves them. -/
theorem outs_last (c : Dev nD) (t : Fin cfg0.N) (h9 : t.val % 10 = 9) :
    (outsAt0 m c t.val t.isLt).1 = k0_pay5 (rowsqAt m c t.val t.isLt)
    ∧ (outsAt0 m c t.val t.isLt).2.1 = k0_pay6 (gramAt m c t.val t.isLt) := by
  have h0 : ¬t.val % 10 = 0 := by omega
  unfold rowsqAt gramAt
  rw [outsAt0_C m c t h0 h9]
  dsimp only
  rw [out2_last, out3_last, rowsq_last, gram_last]
  exact ⟨rfl, rfl⟩

end Cert.KernelIdeal.Steps

end
-- ==== Proof.Payloads.lean ====
/-
  The kernel body's payloads read at an index over the extended reals.

  With `x` a [10000, 256] row tile, `y` a [10000, 20] tile, `a` the [1, 256] row-square accumulator and `g` the
  [256, 20] Gram accumulator:
    the zero blocks read 0 everywhere;
    the new row-square accumulator at column d is  a[0, d] + Σ_r x[r, d]·x[r, d];
    the new Gram accumulator at (d, k) is           g[d, k] + Σ_r x[r, d]·y[r, k];
    output 2 at any lane is                          Σ_d a[0, d]   (the lane sum of the accumulator, splat over 128 lanes);
    output 3 at (0, d, k) is                         g[d, k].
  Sums are finite sums in the additive commutative monoid of the extended reals; nothing here needs finiteness.
-/
import proofs.«163499_j51539607552337_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The zero block stored into the row-square accumulator reads 0. -/
theorem zero_rowsq (j : S1x256.Idx) : k0_pay1 (F := Ideal) j = 0 := by
  unfold k0_pay1
  rw [shapeCast_self]
  exact Ideal.ofBits_zero_f32

/-- The zero block stored into the Gram accumulator reads 0. -/
theorem zero_gram (j : S256x20.Idx) : k0_pay2 (F := Ideal) j = 0 := by
  unfold k0_pay2
  rw [shapeCast_self]
  exact Ideal.ofBits_zero_f32

/-- Column d of the tile's sums of squares, as the body's reduction over the row axis reads it. -/
theorem colsq_apply (x : FVec Ideal S10000x256 .f32) (hacc : (0x00000000#32 : BitVec 32) = 0x00000000#32) (d : Fin 256) :
    multiReduction .add [0] S256 (mulf x x) 0x00000000#32 reduces_S10000x256_S256 (.inl rfl) hacc (ix1 d)
      = ∑ r : Fin 10000, x (ix2 r d) * x (ix2 r d) := by
  refine (Ideal.multiReduction_add_single (mulf x x) 0x00000000#32 reduces_S10000x256_S256 (.inl rfl) hacc (ix1 d)).trans ?_
  refine Finset.sum_congr rfl fun r _ => ?_
  have e : reduces_S10000x256_S256.lift (ix1 d) r = ix2 r d :=
    funext fun a => Fin.ext (by match a with | ⟨0, _⟩ => rfl | ⟨1, _⟩ => rfl)
  rw [e]
  rfl

/-- The new row-square accumulator at column d: the old one plus the tile's column sum of squares. -/
theorem rowsq_apply (x : FVec Ideal S10000x256 .f32) (a : FVec Ideal S1x256 .f32) (d : Fin 256) :
    k0_pay3 x a (ix2 (0 : Fin 1) d) = a (ix2 (0 : Fin 1) d) + ∑ r : Fin 10000, x (ix2 r d) * x (ix2 r d) := by
  unfold k0_pay3
  dsimp only
  rw [shapeCast_self]
  refine congrArg (a (ix2 (0 : Fin 1) d) + ·) ?_
  refine (shapeCast_apply _ shapeCasts_S256_S1x256 (ix2 (0 : Fin 1) d) (ix1 d) ?_).trans (colsq_apply x rfl d)
  rw [Shape.rowMajor_val_two, Shape.rowMajor_val_one]
  show d.val = 0 * 256 + d.val
  omega

/-- The left operand of the body's contraction is indexed (contraction row, output row): its second coordinate is the output's first. -/
theorem lhs_coord1 (j : S256x20.Idx) (q : dot_S10000x256_S10000x20_S256x20_0_0_1_1_n_n.contr.Idx) :
    (dot_S10000x256_S10000x20_S256x20_0_0_1_1_n_n.lhsIdx j q 1).val = (j 0).val := by
  unfold DotDims.lhsIdx
  rw [dif_neg (show ¬(1 : Fin S10000x256.rank) ∈ dot_S10000x256_S10000x20_S256x20_0_0_1_1_n_n.lhsBatch by decide), dif_pos (show (1 : Fin S10000x256.rank) ∈ dot_S10000x256_S10000x20_S256x20_0_0_1_1_n_n.lhsNonContracting by decide)]
  rfl

/-- The right operand is indexed (contraction row, output column): its second coordinate is the output's second. -/
theorem rhs_coord1 (j : S256x20.Idx) (q : dot_S10000x256_S10000x20_S256x20_0_0_1_1_n_n.contr.Idx) :
    (dot_S10000x256_S10000x20_S256x20_0_0_1_1_n_n.rhsIdx j q 1).val = (j 1).val := by
  unfold DotDims.rhsIdx
  rw [dif_neg (show ¬(1 : Fin S10000x20.rank) ∈ dot_S10000x256_S10000x20_S256x20_0_0_1_1_n_n.rhsBatch by decide), dif_pos (show (1 : Fin S10000x20.rank) ∈ dot_S10000x256_S10000x20_S256x20_0_0_1_1_n_n.rhsNonContracting by decide)]
  rfl

/-- The tile's Gram block at (d, k), as the body's transposed-left matmul into a zero accumulator reads it. -/
theorem gramblk_apply (x : FVec Ideal S10000x256 .f32) (y : FVec Ideal S10000x20 .f32) (d : Fin 256) (k : Fin 20) :
    matmul dot_S10000x256_S10000x20_S256x20_0_0_1_1_n_n none x y (constant (F := Ideal) S256x20 .f32 0x00000000#32) (ix2 d k)
      = ∑ r : Fin 10000, x (ix2 r d) * y (ix2 r k) := by
  refine (Ideal.matmul_constant_zero_apply dot_S10000x256_S10000x20_S256x20_0_0_1_1_n_n none x y (ix2 d k)).trans ?_
  rw [← Equiv.sum_comp (contrEquiv1 dot_S10000x256_S10000x20_S256x20_0_0_1_1_n_n 10000 rfl rfl).symm]
  refine Finset.sum_congr rfl fun r _ => ?_
  have hk := contrEquiv1_symm_val dot_S10000x256_S10000x20_S256x20_0_0_1_1_n_n 10000 rfl rfl r
  have el : dot_S10000x256_S10000x20_S256x20_0_0_1_1_n_n.lhsIdx (ix2 d k) ((contrEquiv1 dot_S10000x256_S10000x20_S256x20_0_0_1_1_n_n 10000 rfl rfl).symm r) = ix2 r d :=
    funext fun a => Fin.ext (by
      match a with
      | ⟨0, _⟩ => exact (dot_S10000x256_S10000x20_S256x20_0_0_1_1_n_n.lhsIdx_val_of_single rfl _ _).trans hk
      | ⟨1, _⟩ => exact lhs_coord1 _ _)
  have er : dot_S10000x256_S10000x20_S256x20_0_0_1_1_n_n.rhsIdx (ix2 d k) ((contrEquiv1 dot_S10000x256_S10000x20_S256x20_0_0_1_1_n_n 10000 rfl rfl).symm r) = ix2 r k :=
    funext fun a => Fin.ext (by
      match a with
      | ⟨0, _⟩ => exact (dot_S10000x256_S10000x20_S256x20_0_0_1_1_n_n.rhsIdx_val_of_single rfl _ _).trans hk
      | ⟨1, _⟩ => exact rhs_coord1 _ _)
  rw [el, er]

/-- The new Gram accumulator at (d, k): the old one plus the tile's Gram block. -/
theorem gram_apply (x : FVec Ideal S10000x256 .f32) (y : FVec Ideal S10000x20 .f32) (g : FVec Ideal S256x20 .f32) (d : Fin 256) (k : Fin 20) :
    k0_pay4 x y g (ix2 d k) = g (ix2 d k) + ∑ r : Fin 10000, x (ix2 r d) * y (ix2 r k) := by
  unfold k0_pay4
  rw [shapeCast_self]
  exact congrArg (g (ix2 d k) + ·) (gramblk_apply x y d k)

/-- Output 2 at lane l: the sum over the 256 columns of the row-square accumulator. -/
theorem out2_apply (a : FVec Ideal S1x256 .f32) (l : Fin 128) :
    k0_pay5 a (ix3 (0 : Fin 1) (0 : Fin 1) l) = ∑ d : Fin 256, a (ix2 (0 : Fin 1) d) := by
  unfold k0_pay5
  dsimp only
  rw [shapeCast_self]
  refine (broadcastTo_apply _ broadcasts_S1x1x1_S1x1x128 (ix3 (0 : Fin 1) (0 : Fin 1) l) (ix3 (0 : Fin 1) (0 : Fin 1) (0 : Fin 1)) ?_).trans ?_
  · intro b; match b with | ⟨0, _⟩ => rfl | ⟨1, _⟩ => rfl | ⟨2, _⟩ => rfl
  refine (shapeCast_apply _ shapeCasts_S1x1_S1x1x1 (ix3 (0 : Fin 1) (0 : Fin 1) (0 : Fin 1)) (ix2 (0 : Fin 1) (0 : Fin 1)) ?_).trans ?_
  · rw [Shape.rowMajor_val_two, Shape.rowMajor_val_three]; rfl
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single a 0x00000000#32 reduces_S1x256_S1 (.inl rfl) rfl (ix1 (0 : Fin 1))).trans ?_
  refine Finset.sum_congr rfl fun d _ => ?_
  have e : reduces_S1x256_S1.lift (ix1 (0 : Fin 1)) d = ix2 (0 : Fin 1) d :=
    funext fun b => Fin.ext (by match b with | ⟨0, _⟩ => rfl | ⟨1, _⟩ => rfl)
  exact congrArg a e

/-- Output 3 at (0, d, k): the Gram accumulator at (d, k). -/
theorem out3_apply (g : FVec Ideal S256x20 .f32) (d : Fin 256) (k : Fin 20) :
    k0_pay6 g (ix3 (0 : Fin 1) d k) = g (ix2 d k) := by
  unfold k0_pay6
  refine shapeCast_apply _ shapeCasts_S256x20_S1x256x20 (ix3 (0 : Fin 1) d k) (ix2 d k) ?_
  rw [Shape.rowMajor_val_two, Shape.rowMajor_val_three]
  show d.val * 20 + k.val = (0 * 256 + d.val) * 20 + k.val
  omega

end Cert.KernelIdeal.Payload

end
-- ==== Proof.Tiles.lean ====
/-
  Which rows of the argument arrays a grid point's input blocks are.

  Point t = 10·core + step stages rows t·10000 … t·10000 + 9999 of both arrays (its block index on the row axis is t,
  on the column axis 0); the two outputs' blocks sit at index core = t / 10 on their leading axis. Entry (r, d) of the
  point's [10000, 256] block is entry (t·10000 + r, d) of the first argument, and likewise for the second.
-/
import proofs.«163499_j51539607552337_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Tiles

open Cert.KernelIdeal Cert.KernelIdeal.Gen Idealize.ShloMosaic.ValueIdx

variable {F : FTy → Type} [FloatOps F]
variable (m : (ℓ : Loc nD τ sig) → Buf (Elt F) ℓ)

/-- The input windows' block indices, decided over the grid's 20 points. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The output windows' block indices, decided over the grid's 20 points. -/
theorem idx_out : ∀ t : Fin cfg0.N, win0_2.index t (0 : Fin 3) = t.val / 10 ∧ win0_2.index t (1 : Fin 3) = 0
    ∧ win0_2.index t (2 : Fin 3) = 0 ∧ win0_3.index t (0 : Fin 3) = t.val / 10 ∧ win0_3.index t (1 : Fin 3) = 0
    ∧ win0_3.index t (2 : Fin 3) = 0 :=
  (by decide +kernel : ∀ t : Fin grid0.N, _)

/-- Entry (r, d) of point t's block of the first argument is its entry (t·10000 + r, d). -/
theorem tile0_apply (c : Dev nD) (t : Fin cfg0.N) (r : Fin 10000) (d : Fin 256) (hlt : t.val * 10000 + r.val < 200000) :
    (iblk m c 0 t : Vec F S10000x256 .f32) (ix2 r d)
      = m ((c : Thread nD τ).loc main_arg0) (ix2 (⟨t.val * 10000 + r.val, hlt⟩ : Fin 200000) d) := by
  obtain ⟨e0, e1, -, -⟩ := idx_in t
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 10000 + 1 * r.val = t.val * 10000 + r.val; rw [e0]; omega
  | ⟨1, _⟩ => show win0_0.index t (1 : Fin 2) * 256 + 1 * d.val = d.val; rw [e1]; omega

/-- Entry (r, k) of point t's block of the second argument is its entry (t·10000 + r, k). -/
theorem tile1_apply (c : Dev nD) (t : Fin cfg0.N) (r : Fin 10000) (k : Fin 20) (hlt : t.val * 10000 + r.val < 200000) :
    (iblk m c 1 t : Vec F S10000x20 .f32) (ix2 r k)
      = m ((c : Thread nD τ).loc main_arg1) (ix2 (⟨t.val * 10000 + r.val, hlt⟩ : Fin 200000) k) := by
  obtain ⟨-, -, e0, e1⟩ := idx_in t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 2) * 10000 + 1 * r.val = t.val * 10000 + r.val; rw [e0]; omega
  | ⟨1, _⟩ => show win0_1.index t (1 : Fin 2) * 20 + 1 * k.val = k.val; rw [e1]; omega

end Cert.KernelIdeal.Tiles

end
-- ==== Proof.LibRangeSums.lean ====
/-
  Finite sums over ranges of naturals, in any additive commutative monoid.

  A function of an index below N is extended by zero to every natural (`extRow`), so that positions inside blocks can be
  named by arithmetic on naturals; a range sum of length a·b splits into a blocks of length b (`sum_range_mul`); a sum
  over `Fin b` of a function of the underlying natural is the range sum (`sum_fin_nat`). Nothing here mentions a
  program: the lemmas serve any proof that regroups a long sum into tiles.
-/
import Mathlib

noncomputable section

namespace Cert.SumLaws

open Finset

variable {M : Type*} [AddCommMonoid M]

/-- A function of an index below `N`, extended by zero to every natural. -/
def extRow {N : ℕ} (f : Fin N → M) (n : ℕ) : M := if h : n < N then f ⟨n, h⟩ else 0

/-- Below `N` the extension is the function. -/
theorem extRow_of_lt {N : ℕ} (f : Fin N → M) (n : ℕ) (h : n < N) : extRow f n = f ⟨n, h⟩ := dif_pos h

/-- Summed over the first `N` naturals the extension is the sum over the indices. -/
theorem sum_range_extRow {N : ℕ} (f : Fin N → M) : ∑ n ∈ range N, extRow f n = ∑ n : Fin N, f n := by
  rw [Finset.sum_fin_eq_sum_range]
  rfl

/-- A range sum of length `a * b`, block by block: block `p` holds the positions `p * b + q`, `q < b`. -/
theorem sum_range_mul (a b : ℕ) (f : ℕ → M) :
    ∑ n ∈ range (a * b), f n = ∑ p ∈ range a, ∑ q ∈ range b, f (p * b + q) := by
  induction a with
  | zero => simp
  | succ a ih =>
    rw [Nat.succ_mul, Finset.sum_range_add, ih, Finset.sum_range_succ]

/-- A sum over `Fin b` of a function of the underlying natural is the range sum. -/
theorem sum_fin_nat (b : ℕ) (f : ℕ → M) : ∑ q : Fin b, f q.val = ∑ q ∈ range b, f q :=
  Fin.sum_univ_eq_sum_range f b

end Cert.SumLaws

end
-- ==== Proof.SumLaws.lean ====
/-
  The kernel's tiling of the 200000 rows, as a law of finite sums in any additive commutative monoid (the extended reals
  are one: no finiteness is needed).

  The reference sums over all 200000 rows at once; the kernel sums tile by tile (10000 rows), ten tiles per core, two
  cores. With a function of a row index extended by zero to every natural, the two cores' ten tiles of 10000 rows
  assemble into the sum over the 200000 rows.
-/
import proofs.«163499_j51539607552337_2_alg».proof.Proof.LibRangeSums

noncomputable section

namespace Cert.SumLaws

open Finset

variable {M : Type*} [AddCommMonoid M]

/-- TWO CORES, TEN TILES EACH, 10000 ROWS A TILE: the tiles' sums, core by core, are the sum over all 200000 rows. -/
theorem sum_tiles (f : Fin 200000 → M) :
    ∑ c : Fin 2, ∑ s ∈ range 10, ∑ r : Fin 10000, extRow f ((10 * c.val + s) * 10000 + r.val) = ∑ n : Fin 200000, f n := by
  have e1 : ∑ n ∈ range 200000, extRow f n = ∑ p ∈ range 20, ∑ q ∈ range 10000, extRow f (p * 10000 + q) :=
    sum_range_mul 20 10000 (extRow f)
  have e2 : ∑ p ∈ range 20, ∑ q ∈ range 10000, extRow f (p * 10000 + q)
      = ∑ c ∈ range 2, ∑ s ∈ range 10, ∑ q ∈ range 10000, extRow f ((c * 10 + s) * 10000 + q) :=
    sum_range_mul 2 10 fun p => ∑ q ∈ range 10000, extRow f (p * 10000 + q)
  rw [← sum_range_extRow f, e1, e2, ← sum_fin_nat 2 fun c => ∑ s ∈ range 10, ∑ q ∈ range 10000, extRow f ((c * 10 + s) * 10000 + q)]
  refine Finset.sum_congr rfl fun c _ => Finset.sum_congr rfl fun s _ => ?_
  rw [sum_fin_nat 10000 (fun q => extRow f ((10 * c.val + s) * 10000 + q)), Nat.mul_comm c.val 10]

end Cert.SumLaws

end
-- ==== Proof.Accum.lean ====
/-
  The accumulators in closed form, over the extended reals.

  Write z[n, d] and p[n, k] for the two argument arrays. Tile n (rows n·10000 … n·10000 + 9999) contributes
      sqTile n d      = Σ_r z[n·10000 + r, d]²           to column d of the row-square accumulator, and
      prTile n (d, k) = Σ_r z[n·10000 + r, d]·p[n·10000 + r, k]   to entry (d, k) of the Gram accumulator
  (rows named by naturals, the arrays extended by zero past their 200000 rows, which no tile reaches). Each
  accumulator restarts from zero at the first step of a core's run and adds its tile's contribution at every step, so
  after point t it holds  0 + Σ_{s ≤ t mod 10} (tile 10·(t / 10) + s)'s contribution: a fold along the run, read
  off by induction on the step and never by listing the grid. At a core's last step the outputs are written: output 2
  the sum over the 256 columns of the row-square accumulator, output 3 the Gram accumulator.
-/
import proofs.«163499_j51539607552337_2_alg».proof.Proof.Steps
import proofs.«163499_j51539607552337_2_alg».proof.Proof.Payloads
import proofs.«163499_j51539607552337_2_alg».proof.Proof.Tiles
import proofs.«163499_j51539607552337_2_alg».proof.Proof.SumLaws
import Idealize.ShloMosaic.Lib.Pipeline.Value

noncomputable section

open Idealize.ShloMosaic Idealize.ShloMosaic.TcCoe Idealize.SL.Sem

namespace Cert.KernelIdeal.Accum

open Cert.KernelIdeal Cert.KernelIdeal.Gen Cert.KernelIdeal.Steps Cert.KernelIdeal.Payload Cert.KernelIdeal.Tiles
open Cert.SumLaws Idealize.ShloMosaic.ValueIdx Finset

variable (m : (ℓ : Loc nD τ sig) → Buf (Elt Ideal) ℓ)

/-- Entry (n, d) of the first argument array. -/
def zAt (c : Dev nD) (n : Fin 200000) (d : Fin 256) : EReal := m ((c : Thread nD τ).loc main_arg0) (ix2 n d)
/-- Entry (n, k) of the second argument array. -/
def pAt (c : Dev nD) (n : Fin 200000) (k : Fin 20) : EReal := m ((c : Thread nD τ).loc main_arg1) (ix2 n k)

/-- Tile `n`'s contribution to column `d` of the row-square accumulator. -/
def sqTile (c : Dev nD) (n : ℕ) (d : Fin 256) : EReal :=
  ∑ r : Fin 10000, extRow (fun n' => zAt m c n' d * zAt m c n' d) (n * 10000 + r.val)
/-- Tile `n`'s contribution to entry `(d, k)` of the Gram accumulator. -/
def prTile (c : Dev nD) (n : ℕ) (p : Fin 256 × Fin 20) : EReal :=
  ∑ r : Fin 10000, extRow (fun n' => zAt m c n' p.1 * pAt m c n' p.2) (n * 10000 + r.val)

/-- One step of the row-square accumulator at column d: what it held plus the tile's contribution. -/
theorem rowsq_add (c : Dev nD) (n : ℕ) (h : n < cfg0.N) (a : FVec Ideal S1x256 .f32) (d : Fin 256) :
    k0_pay3 (iblk m c 0 ⟨n, h⟩) a (ix2 (0 : Fin 1) d) = a (ix2 (0 : Fin 1) d) + sqTile m c n d := by
  have hN : n < 20 := lt_of_lt_of_eq h N_0
  refine (rowsq_apply (iblk m c 0 ⟨n, h⟩) a d).trans ?_
  refine congrArg (a (ix2 (0 : Fin 1) d) + ·) (Finset.sum_congr rfl fun r _ => ?_)
  have hlt : n * 10000 + r.val < 200000 := by have := r.isLt; omega
  rw [extRow_of_lt _ _ hlt, tile0_apply m c ⟨n, h⟩ r d hlt]
  rfl

/-- One step of the Gram accumulator at (d, k): what it held plus the tile's contribution. -/
theorem gram_add (c : Dev nD) (n : ℕ) (h : n < cfg0.N) (g : FVec Ideal S256x20 .f32) (d : Fin 256) (k : Fin 20) :
    k0_pay4 (iblk m c 0 ⟨n, h⟩) (iblk m c 1 ⟨n, h⟩) g (ix2 d k) = g (ix2 d k) + prTile m c n (d, k) := by
  have hN : n < 20 := lt_of_lt_of_eq h N_0
  refine (gram_apply (iblk m c 0 ⟨n, h⟩) (iblk m c 1 ⟨n, h⟩) g d k).trans ?_
  refine congrArg (g (ix2 d k) + ·) (Finset.sum_congr rfl fun r _ => ?_)
  have hlt : n * 10000 + r.val < 200000 := by have := r.isLt; omega
  rw [extRow_of_lt _ _ hlt, tile0_apply m c ⟨n, h⟩ r d hlt, tile1_apply m c ⟨n, h⟩ r k hlt]
  rfl

/-- THE ROW-SQUARE ACCUMULATOR after point t, at column d: zero plus the contributions of the tiles of t's run up to t. -/
theorem rowsq_closed (c : Dev nD) (t : ℕ) (ht : t < cfg0.N) (d : Fin 256) :
    rowsqAt m c t ht (ix2 (0 : Fin 1) d) = 0 + ∑ s ∈ range (t % 10 + 1), sqTile m c (10 * (t / 10) + s) d := by
  have hN : cfg0.N = 20 := N_0
  have h' : 10 * (t / 10) + t % 10 < cfg0.N := by omega
  have h0 : ∀ (n : ℕ) (h : n < cfg0.N), n % 10 = 0 →
      (fun d => rowsqAt m c n h (ix2 (0 : Fin 1) d)) = fun d => 0 + sqTile m c n d := fun n h hm => funext fun d => by
    rw [(reset m c n h hm).1, rowsq_add, zero_rowsq]
  have hs : ∀ (n : ℕ) (h : n + 1 < cfg0.N), ¬(n + 1) % 10 = 0 →
      (fun d => rowsqAt m c (n + 1) h (ix2 (0 : Fin 1) d))
        = fun d => rowsqAt m c n (Nat.lt_of_succ_lt h) (ix2 (0 : Fin 1) d) + sqTile m c (n + 1) d := fun n h hm => funext fun d => by
    rw [(step m c n h hm).1, rowsq_add]
  have e := congrFun (Pipeline.eq_accAt_of_mod (fun n h d => rowsqAt m c n h (ix2 (0 : Fin 1) d)) 10
    (fun n _ d => 0 + sqTile m c n d) (fun n _ acc d => acc d + sqTile m c n d) h0 hs (by norm_num) t ht h') d
  refine e.trans ?_
  exact Pipeline.accAt_add_apply (fun n _ d => 0 + sqTile m c n d) (fun n _ acc d => acc d + sqTile m c n d)
    (fun _ => 0) (fun n d => sqTile m c n d) (10 * (t / 10)) (t % 10) (fun _ _ => rfl) (fun _ _ _ _ _ _ => rfl)
    (t % 10) le_rfl h' d

/-- THE GRAM ACCUMULATOR after point t, at (d, k): zero plus the contributions of the tiles of t's run up to t. -/
theorem gram_closed (c : Dev nD) (t : ℕ) (ht : t < cfg0.N) (d : Fin 256) (k : Fin 20) :
    gramAt m c t ht (ix2 d k) = 0 + ∑ s ∈ range (t % 10 + 1), prTile m c (10 * (t / 10) + s) (d, k) := by
  have hN : cfg0.N = 20 := N_0
  have h' : 10 * (t / 10) + t % 10 < cfg0.N := by omega
  have h0 : ∀ (n : ℕ) (h : n < cfg0.N), n % 10 = 0 →
      (fun p : Fin 256 × Fin 20 => gramAt m c n h (ix2 p.1 p.2)) = fun p => 0 + prTile m c n p := fun n h hm => funext fun p => by
    rw [(reset m c n h hm).2, gram_add, zero_gram]
  have hs : ∀ (n : ℕ) (h : n + 1 < cfg0.N), ¬(n + 1) % 10 = 0 →
      (fun p : Fin 256 × Fin 20 => gramAt m c (n + 1) h (ix2 p.1 p.2))
        = fun p => gramAt m c n (Nat.lt_of_succ_lt h) (ix2 p.1 p.2) + prTile m c (n + 1) p := fun n h hm => funext fun p => by
    rw [(step m c n h hm).2, gram_add]
  have e := congrFun (Pipeline.eq_accAt_of_mod (fun n h (p : Fin 256 × Fin 20) => gramAt m c n h (ix2 p.1 p.2)) 10
    (fun n _ p => 0 + prTile m c n p) (fun n _ acc p => acc p + prTile m c n p) h0 hs (by norm_num) t ht h') (d, k)
  refine e.trans ?_
  exact Pipeline.accAt_add_apply (fun n _ p => 0 + prTile m c n p) (fun n _ acc p => acc p + prTile m c n p)
    (fun _ => 0) (fun n p => prTile m c n p) (10 * (t / 10)) (t % 10) (fun _ _ => rfl) (fun _ _ _ _ _ _ => rfl)
    (t % 10) le_rfl h' (d, k)

/-- OUTPUT 2 at a core's last step, at any lane: the sum over the columns of the run's ten tiles' column sums of squares. -/
theorem out2_closed (c : Dev nD) (t : Fin cfg0.N) (h9 : t.val % 10 = 9) (l : Fin 128) :
    (outsAt0 m c t.val t.isLt).1 (ix3 (0 : Fin 1) (0 : Fin 1) l)
      = ∑ d : Fin 256, (0 + ∑ s ∈ range 10, sqTile m c (10 * (t.val / 10) + s) d) := by
  rw [(outs_last m c t h9).1]
  refine (out2_apply _ l).trans (Finset.sum_congr rfl fun d _ => ?_)
  rw [rowsq_closed m c t.val t.isLt d, h9]

/-- OUTPUT 3 at a core's last step, at (0, d, k): the run's ten tiles' Gram contributions at (d, k). -/
theorem out3_closed (c : Dev nD) (t : Fin cfg0.N) (h9 : t.val % 10 = 9) (d : Fin 256) (k : Fin 20) :
    (outsAt0 m c t.val t.isLt).2.1 (ix3 (0 : Fin 1) d k) = 0 + ∑ s ∈ range 10, prTile m c (10 * (t.val / 10) + s) (d, k) := by
  rw [(outs_last m c t h9).2]
  refine (out3_apply _ d k).trans ?_
  rw [gram_closed m c t.val t.isLt d k, h9]

end Cert.KernelIdeal.Accum

end
-- ==== Proof.Outputs.lean ====
/-
  The two output arrays after the run, over the extended reals.

  Core q (q = 0, 1) writes its outputs once, at its last step (point 10·q + 9). Output 1, a [2, 1, 128] array, ends
  with row q holding, in every lane, that core's share of the sum of squares:
      coreSq q = Σ_d (0 + Σ_{s < 10} sqTile (10·q + s) d).
  Output 2, a [2, 256, 20] array, ends with slab q holding that core's share of the Gram matrix:
      coreGram q (d, k) = 0 + Σ_{s < 10} prTile (10·q + s) (d, k).
  Each block written back is the block of these whole-array functions at its point, and the two points' blocks
  cover each array (row q is covered by point 10·q + 9).
-/
import proofs.«163499_j51539607552337_2_alg».proof.Proof.Accum

noncomputable section

open Idealize.ShloMosaic Idealize.ShloMosaic.TcCoe Idealize.SL.Sem

namespace Cert.KernelIdeal.Outputs

open Cert.KernelIdeal Cert.KernelIdeal.Gen Cert.KernelIdeal.Steps Cert.KernelIdeal.Tiles Cert.KernelIdeal.Accum
open Idealize.ShloMosaic.ValueIdx Finset

variable (m : (ℓ : Loc nD τ sig) → Buf (Elt Ideal) ℓ)

/-- Core q's share of the sum of squares. -/
def coreSq (c : Dev nD) (q : ℕ) : EReal := ∑ d : Fin 256, (0 + ∑ s ∈ range 10, sqTile m c (10 * q + s) d)
/-- Core q's share of the Gram matrix at (d, k). -/
def coreGram (c : Dev nD) (q : ℕ) (d : Fin 256) (k : Fin 20) : EReal := 0 + ∑ s ∈ range 10, prTile m c (10 * q + s) (d, k)

/-- Output 1 after the run: row q holds core q's share in every lane. -/
def sqOut (c : Dev nD) : S2x1x128.Idx → EReal := fun j => coreSq m c (j 0).val
/-- Output 2 after the run: slab q holds core q's share of the Gram matrix. -/
def gramOut (c : Dev nD) : S2x256x20.Idx → EReal := fun j => coreGram m c (j 0).val (j 1) (j 2)

/-- An index of a [1, 1, 128] block is (0, 0, lane). -/
theorem eq_lane (y : S1x1x128.Idx) : ∃ l : Fin 128, y = ix3 (0 : Fin 1) (0 : Fin 1) l := by
  have h0 : (y 0).val < 1 := (y 0).isLt
  have h1 : (y 1).val < 1 := (y 1).isLt
  refine ⟨y 2, funext fun a => ?_⟩
  match a with
  | ⟨0, _⟩ => exact Fin.ext (by show (y 0).val = 0; omega)
  | ⟨1, _⟩ => exact Fin.ext (by show (y 1).val = 0; omega)
  | ⟨2, _⟩ => rfl

/-- An index of a [1, 256, 20] block is (0, d, k). -/
theorem eq_slab (y : S1x256x20.Idx) : ∃ (d : Fin 256) (k : Fin 20), y = ix3 (0 : Fin 1) d k := by
  have h0 : (y 0).val < 1 := (y 0).isLt
  refine ⟨y 1, y 2, funext fun a => ?_⟩
  match a with
  | ⟨0, _⟩ => exact Fin.ext (by show (y 0).val = 0; omega)
  | ⟨1, _⟩ => rfl
  | ⟨2, _⟩ => rfl

/-- What a point that writes output 1 back writes is its block of `sqOut`. -/
theorem flushed_sq (c : Dev nD) (t : Fin cfg0.N) (hf : (cfg0.win 2).flush t = true) :
    (dats m 0 c).flushed 2 t = ((cfg0.win 2).blk t).view.read (Elt Ideal) (sqOut m c) := by
  have h9 : t.val % 10 = 9 := (flush0_2 t).mp hf
  obtain ⟨e0, -, -, -, -, -⟩ := idx_out t
  show (cfg0.win 2).cut (grid0.coords t) ((dats m 0 c).after 2 t) = _
  rw [after0_2]
  funext y
  obtain ⟨l, rfl⟩ := eq_lane y
  show (outsAt0 m c t.val t.isLt).1 (ix3 (0 : Fin 1) (0 : Fin 1) l) = sqOut m c (((cfg0.win 2).blk t).view.emb (ix3 (0 : Fin 1) (0 : Fin 1) l))
  rw [out2_closed m c t h9 l]
  have hq : ((((cfg0.win 2).blk t).view.emb (ix3 (0 : Fin 1) (0 : Fin 1) l)) 0).val = t.val / 10 := by
    show win0_2.index t (0 : Fin 3) * 1 + 1 * 0 = t.val / 10
    rw [e0]; omega
  exact (congrArg (coreSq m c) hq).symm

/-- What a point that writes output 2 back writes is its block of `gramOut`. -/
theorem flushed_gram (c : Dev nD) (t : Fin cfg0.N) (hf : (cfg0.win 3).flush t = true) :
    (dats m 0 c).flushed 3 t = ((cfg0.win 3).blk t).view.read (Elt Ideal) (gramOut m c) := by
  have h9 : t.val % 10 = 9 := (flush0_3 t).mp hf
  obtain ⟨-, -, -, e0, e1, e2⟩ := idx_out t
  show (cfg0.win 3).cut (grid0.coords t) ((dats m 0 c).after 3 t) = _
  rw [after0_3]
  funext y
  obtain ⟨d, k, rfl⟩ := eq_slab y
  show (outsAt0 m c t.val t.isLt).2.1 (ix3 (0 : Fin 1) d k) = gramOut m c (((cfg0.win 3).blk t).view.emb (ix3 (0 : Fin 1) d k))
  rw [out3_closed m c t h9 d k]
  have hq : ((((cfg0.win 3).blk t).view.emb (ix3 (0 : Fin 1) d k)) 0).val = t.val / 10 := by
    show win0_3.index t (0 : Fin 3) * 1 + 1 * 0 = t.val / 10
    rw [e0]; omega
  have hd : (((cfg0.win 3).blk t).view.emb (ix3 (0 : Fin 1) d k)) 1 = d := Fin.ext (by
    show win0_3.index t (1 : Fin 3) * 256 + 1 * d.val = d.val
    rw [e1]; omega)
  have hk : (((cfg0.win 3).blk t).view.emb (ix3 (0 : Fin 1) d k)) 2 = k := Fin.ext (by
    show win0_3.index t (2 : Fin 3) * 20 + 1 * k.val = k.val
    rw [e2]; omega)
  show coreGram m c (t.val / 10) d k = coreGram m c _ _ _
  rw [hq, hd, hk]

/-- Row q of output 1 is covered by the block of core q's last point. -/
theorem cover_sq (i : S2x1x128.Idx) : ∃ t : Fin cfg0.N, (cfg0.win 2).flush t = true ∧ i ∈ ((cfg0.win 2).blk t).view.set := by
  have hN : cfg0.N = 20 := N_0
  have hi0 : (i 0).val < 2 := (i 0).isLt
  have hi1 : (i 1).val < 1 := (i 1).isLt
  have hi2 : (i 2).val < 128 := (i 2).isLt
  have ht : 10 * (i 0).val + 9 < cfg0.N := by omega
  obtain ⟨e0, e1, e2, -, -, -⟩ := idx_out ⟨10 * (i 0).val + 9, ht⟩
  have hv : (⟨10 * (i 0).val + 9, ht⟩ : Fin cfg0.N).val = 10 * (i 0).val + 9 := rfl
  refine ⟨⟨10 * (i 0).val + 9, ht⟩, (flush0_2 _).mpr (by rw [hv]; omega), ?_⟩
  show i ∈ ((View.whole main_v0_0).slice (win0_2.rect ⟨10 * (i 0).val + 9, ht⟩)).set
  rw [View.set_slice_whole, Rect.mem_set_unit]
  intro a
  match a with
  | ⟨0, _⟩ =>
    show win0_2.index ⟨10 * (i 0).val + 9, ht⟩ (0 : Fin 3) * 1 ≤ (i 0).val ∧ (i 0).val < win0_2.index ⟨10 * (i 0).val + 9, ht⟩ (0 : Fin 3) * 1 + 1
    rw [e0, hv]; omega
  | ⟨1, _⟩ =>
    show win0_2.index ⟨10 * (i 0).val + 9, ht⟩ (1 : Fin 3) * 1 ≤ (i 1).val ∧ (i 1).val < win0_2.index ⟨10 * (i 0).val + 9, ht⟩ (1 : Fin 3) * 1 + 1
    rw [e1]; omega
  | ⟨2, _⟩ =>
    show win0_2.index ⟨10 * (i 0).val + 9, ht⟩ (2 : Fin 3) * 128 ≤ (i 2).val ∧ (i 2).val < win0_2.index ⟨10 * (i 0).val + 9, ht⟩ (2 : Fin 3) * 128 + 128
    rw [e2]; omega

/-- Slab q of output 2 is covered by the block of core q's last point. -/
theorem cover_gram (i : S2x256x20.Idx) : ∃ t : Fin cfg0.N, (cfg0.win 3).flush t = true ∧ i ∈ ((cfg0.win 3).blk t).view.set := by
  have hN : cfg0.N = 20 := N_0
  have hi0 : (i 0).val < 2 := (i 0).isLt
  have hi1 : (i 1).val < 256 := (i 1).isLt
  have hi2 : (i 2).val < 20 := (i 2).isLt
  have ht : 10 * (i 0).val + 9 < cfg0.N := by omega
  obtain ⟨-, -, -, e0, e1, e2⟩ := idx_out ⟨10 * (i 0).val + 9, ht⟩
  have hv : (⟨10 * (i 0).val + 9, ht⟩ : Fin cfg0.N).val = 10 * (i 0).val + 9 := rfl
  refine ⟨⟨10 * (i 0).val + 9, ht⟩, (flush0_3 _).mpr (by rw [hv]; omega), ?_⟩
  show i ∈ ((View.whole main_v0_1).slice (win0_3.rect ⟨10 * (i 0).val + 9, ht⟩)).set
  rw [View.set_slice_whole, Rect.mem_set_unit]
  intro a
  match a with
  | ⟨0, _⟩ =>
    show win0_3.index ⟨10 * (i 0).val + 9, ht⟩ (0 : Fin 3) * 1 ≤ (i 0).val ∧ (i 0).val < win0_3.index ⟨10 * (i 0).val + 9, ht⟩ (0 : Fin 3) * 1 + 1
    rw [e0, hv]; omega
  | ⟨1, _⟩ =>
    show win0_3.index ⟨10 * (i 0).val + 9, ht⟩ (1 : Fin 3) * 256 ≤ (i 1).val ∧ (i 1).val < win0_3.index ⟨10 * (i 0).val + 9, ht⟩ (1 : Fin 3) * 256 + 256
    rw [e1]; omega
  | ⟨2, _⟩ =>
    show win0_3.index ⟨10 * (i 0).val + 9, ht⟩ (2 : Fin 3) * 20 ≤ (i 2).val ∧ (i 2).val < win0_3.index ⟨10 * (i 0).val + 9, ht⟩ (2 : Fin 3) * 20 + 20
    rw [e2]; omega

/-- OUTPUT 1 after the run. -/
theorem final_sq (c : Dev nD) : (dats m 0 c).arrAt 2 cfg0.N = sqOut m c :=
  (dats m 0 c).arrAt_eq_of_cover 2 (sqOut m c) (flushed_sq m c) cover_sq

/-- OUTPUT 2 after the run. -/
theorem final_gram (c : Dev nD) : (dats m 0 c).arrAt 3 cfg0.N = gramOut m c :=
  (dats m 0 c).arrAt_eq_of_cover 3 (gramOut m c) (flushed_gram m c) cover_gram

end Cert.KernelIdeal.Outputs

end
-- ==== Proof.Tail.lean ====
/-
  The host operations after the kernel, as one function of the two output arrays.

  After the region @main takes entry [q, 0, 0] of output 1 for q = 0, 1 and sums the two; sums output 2 over its leading
  axis, squares the [256, 20] result entrywise and sums all of it; and subtracts the second number from the first. Over the
  extended reals each host sum is its initial value 0 plus the finite sum of its operand's entries, so the result is
      (0 + Σ_q o1[q, 0, 0]) - (0 + Σ_d Σ_k (0 + Σ_q o2[q, d, k])²).
  What the frame run leaves in @main's result buffer is this function of the two arrays as the region leaves them.
-/
import proofs.«163499_j51539607552337_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem

namespace Cert.KernelIdeal.Tail

open Cert.KernelIdeal Cert.KernelIdeal.Gen Idealize.ShloMosaic.ValueIdx

section AnyInstance

variable {F : FTy → Type} [FloatOps F]
variable (m : (ℓ : Loc nD τ sig) → Buf (Elt F) ℓ)

/-- The ten host operations after the region, composed: @main's result from the two output arrays. -/
def tail (o1 : (⟨S2x1x128, .f32⟩ : BufTy).Contents (Elt F)) (o2 : (⟨S2x256x20, .f32⟩ : BufTy).Contents (Elt F)) :
    (⟨S_, .f32⟩ : BufTy).Contents (Elt F) :=
  subf
    (Host.reduceAdd (shapeCast S2 (extractStridedSlice S2x1x1 ![0, 0, 0] o1 slices_S2x1x128_S2x1x1_0_0_0) shapeCasts_S2x1x1_S2)
      (constant S_ .f32 0x00000000#32) reducesTo_S2_S_d0 h_S_)
    (Host.reduceAdd
      (mulf (Host.reduceAdd o2 (constant S_ .f32 0x00000000#32) reducesTo_S2x256x20_S256x20_d0 h_S_)
        (Host.reduceAdd o2 (constant S_ .f32 0x00000000#32) reducesTo_S2x256x20_S256x20_d0 h_S_))
      (constant S_ .f32 0x00000000#32) reducesTo_S256x20_S_d0_1 h_S_)

/-- What the run leaves in @main's result buffer: the tail of the two output arrays as the region leaves them. -/
theorem result_eq_tail (c : Dev nD) :
    Pipeline.afterTail₀ cfgs (dats m) 0 (V0 m) [hostOps1] c main_v7
      = tail (Pipeline.withArrays (cfgs 0).spec c (V0 m c) (fun w => (dats m 0 c).arrAt w (cfgs 0).N) (Proc.devRef .tc main_v0_0))
          (Pipeline.withArrays (cfgs 0).spec c (V0 m c) (fun w => (dats m 0 c).arrAt w (cfgs 0).N) (Proc.devRef .tc main_v0_1)) := by
  unfold Pipeline.afterTail₀
  show StableHlo.after hostOps1 _ (Proc.devRef .tc main_v7) = _
  after_results
  rfl

end AnyInstance

/-! ## Over the extended reals -/

/-- A sum over the indices of a rank-one shape is the sum over its one coordinate. -/
theorem sum_idx1 {M : Type*} [AddCommMonoid M] {n : Nat} (f : (⟨1, ![n]⟩ : Shape).Idx → M) :
    ∑ i, f i = ∑ q : Fin n, f (ix1 q) :=
  Fintype.sum_equiv ⟨fun i => i 0, ix1, fun i => (eq_ix1 i).symm, fun _ => rfl⟩ f (fun q => f (ix1 q))
    fun i => congrArg f (eq_ix1 i)

/-- The host's sum of a vector of two entries. -/
theorem host_sum2 (x : FVec Ideal S2 .f32) (j : S_.Idx) :
    Host.reduceAdd (F := Ideal) x (constant (F := Ideal) S_ .f32 0x00000000#32) reducesTo_S2_S_d0 h_S_ j
      = 0 + ∑ q : Fin 2, x (ix1 q) := by
  simp only [Host.reduceAdd, Ideal.hostReduceAdd_def]
  refine (Ideal.hostReduceAdd_total reducesTo_S2_S_d0 (fun b => b.elim0) x _ j).trans ?_
  rw [sum_idx1]
  exact congrArg (· + _) Ideal.ofBits_zero_f32

/-- The host's sum of a [2, 256, 20] array over its leading axis, at (d, k). -/
theorem host_sum_lead (x : FVec Ideal S2x256x20 .f32) (d : Fin 256) (k : Fin 20) :
    Host.reduceAdd (F := Ideal) x (constant (F := Ideal) S_ .f32 0x00000000#32) reducesTo_S2x256x20_S256x20_d0 h_S_ (ix2 d k)
      = 0 + ∑ q : Fin 2, x (ix3 q d k) := by
  simp only [Host.reduceAdd, Ideal.hostReduceAdd_def]
  refine (Ideal.hostReduceAdd_single reducesTo_S2x256x20_S256x20_d0 (by decide : S2x256x20.Reduces [0] S256x20) x _ (ix2 d k)).trans ?_
  refine congrArg₂ (· + ·) Ideal.ofBits_zero_f32 (Finset.sum_congr rfl fun q _ => congrArg x ?_)
  exact funext fun a => Fin.ext (by match a with | ⟨0, _⟩ => rfl | ⟨1, _⟩ => rfl | ⟨2, _⟩ => rfl)

/-- The host's sum of all of a [256, 20] array. -/
theorem host_sum_all (x : FVec Ideal S256x20 .f32) (j : S_.Idx) :
    Host.reduceAdd (F := Ideal) x (constant (F := Ideal) S_ .f32 0x00000000#32) reducesTo_S256x20_S_d0_1 h_S_ j
      = 0 + ∑ d : Fin 256, ∑ k : Fin 20, x (ix2 d k) := by
  simp only [Host.reduceAdd, Ideal.hostReduceAdd_def]
  refine (Ideal.hostReduceAdd_total reducesTo_S256x20_S_d0_1 (fun b => b.elim0) x _ j).trans ?_
  rw [sum_idx2]
  exact congrArg (· + _) Ideal.ofBits_zero_f32

/-- Entry q of the [2] vector the host slices and reshapes out of output 1 is its entry [q, 0, 0]. -/
theorem lane0_apply (o1 : FVec Ideal S2x1x128 .f32) (q : Fin 2) :
    shapeCast S2 (extractStridedSlice S2x1x1 ![0, 0, 0] o1 slices_S2x1x128_S2x1x1_0_0_0) shapeCasts_S2x1x1_S2 (ix1 q)
      = o1 (ix3 q (0 : Fin 1) (0 : Fin 128)) := by
  refine (shapeCast_apply _ shapeCasts_S2x1x1_S2 (ix1 q) (ix3 q (0 : Fin 1) (0 : Fin 1)) ?_).trans ?_
  · rw [Shape.rowMajor_val_three, Shape.rowMajor_val_one]
    show (q.val * 1 + 0) * 1 + 0 = q.val
    omega
  refine extractStridedSlice_apply ![0, 0, 0] o1 slices_S2x1x128_S2x1x1_0_0_0 (ix3 q (0 : Fin 1) (0 : Fin 1)) (ix3 q (0 : Fin 1) (0 : Fin 128)) fun a => ?_
  match a with
  | ⟨0, _⟩ => show q.val = 0 + q.val; omega
  | ⟨1, _⟩ => rfl
  | ⟨2, _⟩ => rfl

/-- THE TAIL over the extended reals. -/
theorem tail_apply (o1 : FVec Ideal S2x1x128 .f32) (o2 : FVec Ideal S2x256x20 .f32) (j : S_.Idx) :
    tail (F := Ideal) o1 o2 j
      = (0 + ∑ q : Fin 2, o1 (ix3 q (0 : Fin 1) (0 : Fin 128)))
        - (0 + ∑ d : Fin 256, ∑ k : Fin 20, (0 + ∑ q : Fin 2, o2 (ix3 q d k)) * (0 + ∑ q : Fin 2, o2 (ix3 q d k))) := by
  unfold tail
  show Host.reduceAdd (F := Ideal) _ _ reducesTo_S2_S_d0 h_S_ j - Host.reduceAdd (F := Ideal) _ _ reducesTo_S256x20_S_d0_1 h_S_ j = _
  rw [host_sum2, host_sum_all]
  refine congrArg₂ (· - ·) (congrArg (0 + ·) (Finset.sum_congr rfl fun q _ => lane0_apply o1 q))
    (congrArg (0 + ·) (Finset.sum_congr rfl fun d _ => Finset.sum_congr rfl fun k _ => ?_))
  show Host.reduceAdd (F := Ideal) o2 _ reducesTo_S2x256x20_S256x20_d0 h_S_ (ix2 d k) * Host.reduceAdd (F := Ideal) o2 _ reducesTo_S2x256x20_S256x20_d0 h_S_ (ix2 d k) = _
  rw [host_sum_lead]

end Cert.KernelIdeal.Tail

end
-- ==== Proof.KernelRun.lean ====
/-
  The idealized kernel's run, read: @main's result buffer ends at the host tail of the two output arrays in closed
  form, and the two argument arrays end unchanged.
-/
import proofs.«163499_j51539607552337_2_alg».proof.Proof.Outputs
import proofs.«163499_j51539607552337_2_alg».proof.Proof.Tail

noncomputable section

open Idealize.ShloMosaic Idealize.ShloMosaic.TcCoe Idealize.SL.Sem

namespace Cert.KernelIdeal.KernelRun

open Cert.KernelIdeal Cert.KernelIdeal.Gen Cert.KernelIdeal.Outputs Cert.KernelIdeal.Tail

variable (m : (ℓ : Loc nD τ sig) → Buf (Elt Ideal) ℓ) (ρ : Dev nD → PrngReg)

/-- @main's result after the run: the tail of the two output arrays in closed form. -/
theorem result_value (c : Dev nD) :
    Pipeline.afterTail₀ cfgs (dats m) 0 (V0 m) [hostOps1] c main_v7 = tail (sqOut m c) (gramOut m c) := by
  rw [result_eq_tail]
  exact congrArg₂ tail
    ((Pipeline.withArrays_arr spec0 launch0.win.arr_inj c (V0 m c) (fun w => (dats m 0 c).arrAt w (cfgs 0).N) 2).trans (final_sq m c))
    ((Pipeline.withArrays_arr spec0 launch0.win.arr_inj c (V0 m c) (fun w => (dats m 0 c).arrAt w (cfgs 0).N) 3).trans (final_gram m c))

/-- Every weakly fair execution of the idealized kernel's @main terminates with its result at that value and its arguments unchanged. -/
theorem run : θ_run defs (onTc (τ := τ) (main (F := Ideal))) ⟨m, fun _ => 0, ρ⟩ fun r => ∀ c : Dev nD,
      r.2.mem ((c.tc : Thread nD τ).loc main_v7) = tail (sqOut m c) (gramOut m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 rfl (fun w => by fin_cases w <;> decide))).trans (result_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelRun

end
-- ==== Proof.Reference.lean ====
/-
  The reference's result over the extended reals, index-free.

  With z and p the two argument arrays, the reference computes
      (0 + Σ_n Σ_d z[n, d]²) - (0 + Σ_d Σ_k (Σ_n z[n, d]·p[n, k])²):
  jnp.sum of the entrywise square, the einsum as a sum over the 200000 rows, jnp.sum of its entrywise square, and the difference.
-/
import proofs.«163499_j51539607552337_2_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Read Idealize.ShloMosaic.ValueIdx

theorem lidx_eq (d : Fin 256) (k : Fin 20) (n : Fin 200000) : lidx_main_v2 (ix2 d k) n = ix2 n d :=
  funext fun a => Fin.ext (by match a with | ⟨0, _⟩ => rfl | ⟨1, _⟩ => rfl)

theorem ridx_eq (d : Fin 256) (k : Fin 20) (n : Fin 200000) : ridx_main_v2 (ix2 d k) n = ix2 n k :=
  funext fun a => Fin.ext (by match a with | ⟨0, _⟩ => rfl | ⟨1, _⟩ => rfl)

/-- THE REFERENCE's result. -/
theorem result_apply (x0 : (⟨S200000x256, .f32⟩ : BufTy).Contents (Elt Ideal)) (x1 : (⟨S200000x20, .f32⟩ : BufTy).Contents (Elt Ideal)) (j : S_.Idx) :
    val_main_v5 (F := Ideal) x0 x1 j
      = (0 + ∑ n : Fin 200000, ∑ d : Fin 256, x0 (ix2 n d) * x0 (ix2 n d))
        - (0 + ∑ d : Fin 256, ∑ k : Fin 20, (∑ n : Fin 200000, x0 (ix2 n d) * x1 (ix2 n k)) * (∑ n : Fin 200000, x0 (ix2 n d) * x1 (ix2 n k))) := by
  rw [val_main_v5_apply, val_main_v1_apply, val_main_v4_apply, sum_idx2, sum_idx2]
  refine congrArg₂ (· - ·) (congrArg₂ (· + ·) Ideal.ofBits_zero_f32 rfl)
    (congrArg₂ (· + ·) Ideal.ofBits_zero_f32 (Finset.sum_congr rfl fun d _ => Finset.sum_congr rfl fun k _ => ?_))
  rw [val_main_v3_apply, val_main_v2_apply]
  simp only [lidx_eq, ridx_eq]
  rfl

end Cert.ReferenceIdeal.RefValue

end
-- ==== Proof.Bridge.lean ====
/-
  The kernel's result is the reference's, over the extended reals.

  Write z, p for the argument arrays. The kernel's result is
      (0 + Σ_q coreSq q) - (0 + Σ_d Σ_k (0 + Σ_q coreGram q (d, k))²),
  the reference's
      (0 + Σ_n Σ_d z[n, d]²) - (0 + Σ_d Σ_k (Σ_n z[n, d]·p[n, k])²).
  The two cores' shares add up to the whole: the 200000 rows are the two cores' ten tiles of 10000 rows each, and a finite
  sum in a commutative monoid may be taken in any grouping and order (for the first term the sums over rows and over
  columns are also exchanged). Zero is the additive identity. No finiteness of the inputs is used.
-/
import proofs.«163499_j51539607552337_2_alg».proof.Proof.KernelRun
import proofs.«163499_j51539607552337_2_alg».proof.Proof.Reference

noncomputable section

open Idealize.ShloMosaic Idealize.ShloMosaic.TcCoe Idealize.SL.Sem

namespace Cert.Bridge

open Cert.KernelIdeal Cert.KernelIdeal.Accum Cert.KernelIdeal.Outputs Cert.KernelIdeal.Tail
open Cert.SumLaws Idealize.ShloMosaic.ValueIdx Finset

variable (m : (ℓ : Loc Cert.KernelIdeal.nD Cert.KernelIdeal.τ Cert.KernelIdeal.sig) → Buf (Elt Ideal) ℓ)

/-- The two cores' shares of the sum of squares add up to the sum over all rows and columns. -/
theorem sq_total (c : Dev Cert.KernelIdeal.nD) :
    ∑ q : Fin 2, coreSq m c q.val = ∑ n : Fin 200000, ∑ d : Fin 256, zAt m c n d * zAt m c n d := by
  calc ∑ q : Fin 2, coreSq m c q.val
      = ∑ d : Fin 256, ∑ q : Fin 2, ∑ s ∈ range 10, ∑ r : Fin 10000,
          extRow (fun n' => zAt m c n' d * zAt m c n' d) ((10 * q.val + s) * 10000 + r.val) := by
        unfold coreSq sqTile
        simp only [zero_add]
        exact Finset.sum_comm
    _ = ∑ d : Fin 256, ∑ n : Fin 200000, zAt m c n d * zAt m c n d :=
        Finset.sum_congr rfl fun d _ => sum_tiles fun n' => zAt m c n' d * zAt m c n' d
    _ = _ := Finset.sum_comm

/-- The two cores' shares of the Gram matrix add up, entry by entry, to the contraction over all rows. -/
theorem gram_total (c : Dev Cert.KernelIdeal.nD) (d : Fin 256) (k : Fin 20) :
    0 + ∑ q : Fin 2, coreGram m c q.val d k = ∑ n : Fin 200000, zAt m c n d * pAt m c n k := by
  unfold coreGram prTile
  simp only [zero_add]
  exact sum_tiles fun n' => zAt m c n' d * pAt m c n' k

/-- The kernel's result in the reference's form. -/
theorem kernel_result (c : Dev Cert.KernelIdeal.nD) (j : Cert.KernelIdeal.S_.Idx) :
    tail (F := Ideal) (sqOut m c) (gramOut m c) j
      = (0 + ∑ n : Fin 200000, ∑ d : Fin 256, zAt m c n d * zAt m c n d)
        - (0 + ∑ d : Fin 256, ∑ k : Fin 20, (∑ n : Fin 200000, zAt m c n d * pAt m c n k) * (∑ n : Fin 200000, zAt m c n d * pAt m c n k)) := by
  rw [tail_apply]
  refine congrArg₂ (· - ·) (congrArg (0 + ·) (sq_total m c))
    (congrArg (0 + ·) (Finset.sum_congr rfl fun d _ => Finset.sum_congr rfl fun k _ => ?_))
  exact congrArg₂ (· * ·) (gram_total m c d k) (gram_total m c d k)

/-- THE TWO RESULTS ARE ONE. -/
theorem result_eq (c : Dev Cert.KernelIdeal.nD) :
    tail (F := Ideal) (sqOut m c) (gramOut m c)
      = Cert.ReferenceIdeal.Read.val_main_v5 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  funext fun j => (kernel_result m c j).trans (Cert.ReferenceIdeal.RefValue.result_apply _ _ j).symm

end Cert.Bridge

end
-- ==== Proof.lean ====
/-
  The certificate of a clustering loss: for embeddings Z [200000, 256] and an indicator P [200000, 20] the kernel and its
  jnp reference both compute  tr(Z Zᵀ) − tr(Pᵀ Z Zᵀ P) = Σ Z² − ‖Zᵀ P‖²_F.

  The kernel streams the rows in 20 tiles of 10000, ten per core on a (2, 10) grid, keeping per core a [1, 256] running
  column sum of squares and a [256, 20] running partial of Zᵀ P; at a core's last step it writes the lane sum of the first
  and the second itself into its row of two small outputs, and the host adds the two cores' rows, squares the combined
  [256, 20] matrix, sums it, and subtracts. The reference sums Z² over all entries, contracts Z with P over all rows at once,
  squares, sums, and subtracts. Over the extended reals the two agree because finite sums may be regrouped freely.

  The five conjuncts: the three frames (the two kernels' are generated whole; the reference's is its generated run with the
  result dropped); the idealization rewrote nothing; and the algebraic claim, assembled from the kernel's run read back
  (Proof/KernelRun.lean), the reference's run (generated) and the equality of the two results (Proof/Bridge.lean).
-/
import proofs.«163499_j51539607552337_2_alg».proof.Defs
import proofs.«163499_j51539607552337_2_alg».proof.Proof.Gen.Kernel
import proofs.«163499_j51539607552337_2_alg».proof.Proof.Gen.Kernel.Skeleton
import proofs.«163499_j51539607552337_2_alg».proof.Proof.Gen.Kernel.Launch
import proofs.«163499_j51539607552337_2_alg».proof.Proof.Gen.Kernel.Points
import proofs.«163499_j51539607552337_2_alg».proof.Proof.Gen.Kernel.Frame
import proofs.«163499_j51539607552337_2_alg».proof.Proof.Gen.KernelIdeal
import proofs.«163499_j51539607552337_2_alg».proof.Proof.Gen.KernelIdeal.Skeleton
import proofs.«163499_j51539607552337_2_alg».proof.Proof.Gen.KernelIdeal.Launch
import proofs.«163499_j51539607552337_2_alg».proof.Proof.Gen.KernelIdeal.Points
import proofs.«163499_j51539607552337_2_alg».proof.Proof.Gen.KernelIdeal.Frame
import proofs.«163499_j51539607552337_2_alg».proof.Proof.Gen.ReferenceIdeal
import proofs.«163499_j51539607552337_2_alg».proof.Proof.Gen.Pre_finite_inputs
import proofs.«163499_j51539607552337_2_alg».proof.Proof.Gen.ReferenceIdeal.Run
import proofs.«163499_j51539607552337_2_alg».proof.Proof.Gen.ReferenceIdeal.Read
import proofs.«163499_j51539607552337_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the same result: the kernel's run leaves
    the host tail of its two outputs in closed form, the reference's its composed term, and the two are one function of
    the arguments. -/
theorem algebraic : Cert.algebraic_KernelIdeal_ReferenceIdeal := by
  intro m ρ m' ρ' _ hagree
  refine ⟨fun c => Cert.KernelIdeal.Tail.tail (F := Ideal) (Cert.KernelIdeal.Outputs.sqOut m c) (Cert.KernelIdeal.Outputs.gramOut m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
